-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x1024 : Shape := ⟨3, ![16, 4096, 1024]⟩
abbrev S64x256 : Shape := ⟨2, ![64, 256]⟩
abbrev S_ : Shape := ⟨0, ![]⟩

class Facts : Prop where
  bcast_S_S16x4096x1024 : S_.BroadcastsInDim S16x4096x1024 (![] : Fin 0 → Fin S16x4096x1024.rank)
  reducesTo_S16x4096x1024_S_d0_1_2 : S16x4096x1024.ReducesTo [0, 1, 2] S_
  h_S_ : 0 < S_.numel
  bcast_S_S64x256 : S_.BroadcastsInDim S64x256 (![] : Fin 0 → Fin S64x256.rank)
  reducesTo_S64x256_S_d0_1 : S64x256.ReducesTo [0, 1] S_

variable [Facts]

def fn_part1 {F : FTy → Type} [FloatOps F] (main_v13 : IVec S_ 1) (main_v16 : IVec S64x256 1) : IVec S_ 1 :=
  let main_c_5 : IVec S_ 1 := constantI S_ 1 1#1
  let main_v17 : IVec S_ 1 := (fun x v => Host.reduce IntOp.andi x v reducesTo_S64x256_S_d0_1 h_S_) main_v16 main_c_5
  let main_v18 : IVec S_ 1 := andi main_v13 main_v17
  main_v18

def fn {F : FTy → Type} [FloatOps F] (main_arg0 : FVec F S16x4096x1024 .f32) (main_arg1 : FVec F S64x256 .f32) (main_arg2 : FVec F S64x256 .f32) (main_arg3 : FVec F S64x256 .f32) : IVec S_ 1 :=
  let main_v0 : FVec F S16x4096x1024 .f32 := Host.absf main_arg0
  let main_cst : FVec F S_ .f32 := constant S_ .f32 0x7F800000#32
  let main_v1 : FVec F S16x4096x1024 .f32 := broadcastInDim S16x4096x1024 ![] bcast_S_S16x4096x1024 main_cst
  let main_v2 : IVec S16x4096x1024 1 := cmpf .olt main_v0 main_v1
  let main_c : IVec S_ 1 := constantI S_ 1 1#1
  let main_v3 : IVec S_ 1 := (fun x v => Host.reduce IntOp.andi x v reducesTo_S16x4096x1024_S_d0_1_2 h_S_) main_v2 main_c
  let main_v4 : FVec F S64x256 .f32 := Host.absf main_arg1
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  let main_v9 : FVec F S64x256 .f32 := Host.absf main_arg2
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  let main_v14 : FVec F S64x256 .f32 := Host.absf main_arg3
  let main_cst_4 : FVec F S_ .f32 := constant S_ .f32 0x7F800000#32
  let main_v15 : FVec F S64x256 .f32 := broadcastInDim S64x256 ![] bcast_S_S64x256 main_cst_4
  let main_v16 : IVec S64x256 1 := cmpf .olt main_v14 main_v15
  fn_part1 (F := F) main_v13 main_v16
-- ==== Kernel.lean ====
abbrev S16x4096x1024 : Shape := ⟨3, ![16, 4096, 1024]⟩
abbrev S64x256 : Shape := ⟨2, ![64, 256]⟩
abbrev S65536x1024 : Shape := ⟨2, ![65536, 1024]⟩
abbrev S256x64 : Shape := ⟨2, ![256, 64]⟩
abbrev S_ : Shape := ⟨0, ![]⟩
abbrev S256x256 : Shape := ⟨2, ![256, 256]⟩
abbrev S1024x256 : Shape := ⟨2, ![1024, 256]⟩
abbrev S65536x256 : Shape := ⟨2, ![65536, 256]⟩
abbrev S2048x1024 : Shape := ⟨2, ![2048, 1024]⟩
abbrev S2048x256 : Shape := ⟨2, ![2048, 256]⟩
abbrev S16x4096x256 : Shape := ⟨3, ![16, 4096, 256]⟩

abbrev nBuf : Space → Nat
  | .hbm => 16
  | .vmem => 5
  | .smem => 0
  | _ => 0

abbrev bufTy : (tb : Table) → Fin (tcTables nBuf tb) → BufTy
  | .hbm, ⟨0, _⟩ => ⟨S16x4096x1024, .f32⟩
  | .hbm, ⟨1, _⟩ => ⟨S64x256, .f32⟩
  | .hbm, ⟨2, _⟩ => ⟨S64x256, .f32⟩
  | .hbm, ⟨3, _⟩ => ⟨S64x256, .f32⟩
  | .hbm, ⟨4, _⟩ => ⟨S65536x1024, .f32⟩
  | .hbm, ⟨5, _⟩ => ⟨S256x64, .f32⟩
  | .hbm, ⟨6, _⟩ => ⟨S256x64, .bf16⟩
  | .hbm, ⟨7, _⟩ => ⟨S_, .bf16⟩
  | .hbm, ⟨8, _⟩ => ⟨S256x64, .bf16⟩
  | .hbm, ⟨9, _⟩ => ⟨S256x256, .bf16⟩
  | .hbm, ⟨10, _⟩ => ⟨S256x256, .bf16⟩
  | .hbm, ⟨11, _⟩ => ⟨S256x256, .bf16⟩
  | .hbm, ⟨12, _⟩ => ⟨S256x256, .bf16⟩
  | .hbm, ⟨13, _⟩ => ⟨S1024x256, .bf16⟩
  | .hbm, ⟨14, _⟩ => ⟨S65536x256, .f32⟩
  | .hbm, ⟨15, _⟩ => ⟨S16x4096x256, .f32⟩
  | .local _ .vmem, ⟨0, _⟩ => ⟨S2048x1024, .f32⟩
  | .local _ .vmem, ⟨1, _⟩ => ⟨S2048x1024, .f32⟩
  | .local _ .vmem, ⟨2, _⟩ => ⟨S1024x256, .bf16⟩
  | .local _ .vmem, ⟨3, _⟩ => ⟨S2048x256, .f32⟩
  | .local _ .vmem, ⟨4, _⟩ => ⟨S2048x256, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16x4096x1024_S65536x1024 : S16x4096x1024.ShapeCasts S65536x1024
  transposes_S64x256_S256x64_1_0 : S64x256.Transposes [1, 0] S256x64
  bitsLt_bf16_f32 : FTy.bits .bf16 < FTy.bits .f32
  bcast_S_S256x64 : S_.BroadcastsInDim S256x64 (![] : Fin 0 → Fin S256x64.rank)
  concatenates_S256x64_S256x64_S256x64_S256x64_S256x256_d1 : Shape.Concatenates [S256x64, S256x64, S256x64, S256x64] S256x256 1
  concatenates_S256x256_S256x256_S256x256_S256x256_S1024x256_d0 : Shape.Concatenates [S256x256, S256x256, S256x256, S256x256] S1024x256 0
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S2048x1024_S2048x256_0_768 : ∀ a, (![0, 768] : Fin 2 → Nat) a + S2048x256.size a ≤ S2048x1024.size a
  h_S2048x256 : 0 < S2048x256.numel
  shapeCasts_S2048x256_S2048x256 : S2048x256.ShapeCasts S2048x256
  inb_S2048x256_S2048x256_0_0 : ∀ a, (![0, 0] : Fin 2 → Nat) a + S2048x256.size a ≤ S2048x256.size a
  shapeCasts_S65536x256_S16x4096x256 : S65536x256.ShapeCasts S16x4096x256
  dot_S2048x1024_S1024x256_S2048x256_1_0_0_1_n_n_wf : DotDims.WF S2048x1024 S1024x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S65536x1024.size a
  hwx0_0 : ∀ i : grid0.Coords, EltTy.bits .f32 = 32 ∨ (Rect.block (s := S65536x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .bf16 = 32 ∨ (Rect.block (s := S1024x256) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S65536x256.size a
  hwx0_2 : ∀ i : grid0.Coords, EltTy.bits .f32 = 32 ∨ (Rect.block (s := S65536x256) S2048x256.size (cc0_transform_2 i) (hinb0_2 i)).WholeWords (EltTy.packing .f32)

variable [Facts₀]

def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf

abbrev win0_0 : Pipeline.Window sig grid0 :=
  Pipeline.Window.ofSpec (Memref.whole main_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S2048x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x4096x1024 : Shape := ⟨3, ![16, 4096, 1024]⟩
abbrev S64x256 : Shape := ⟨2, ![64, 256]⟩
abbrev S16x4096x4x256 : Shape := ⟨4, ![16, 4096, 4, 256]⟩
abbrev S16x4x4096x256 : Shape := ⟨4, ![16, 4, 4096, 256]⟩
abbrev S16x4x4096x64 : Shape := ⟨4, ![16, 4, 4096, 64]⟩
abbrev S16x4x64x64 : Shape := ⟨4, ![16, 4, 64, 64]⟩
abbrev S_ : Shape := ⟨0, ![]⟩
abbrev S16x4x64 : Shape := ⟨3, ![16, 4, 64]⟩
abbrev S16x4x64x1 : Shape := ⟨4, ![16, 4, 64, 1]⟩
abbrev S16x4096x4x64 : Shape := ⟨4, ![16, 4096, 4, 64]⟩
abbrev S16x4096x256 : Shape := ⟨3, ![16, 4096, 256]⟩
abbrev S16x1x4096x256 : Shape := ⟨4, ![16, 1, 4096, 256]⟩

abbrev nBuf : Space → Nat
  | .hbm => 33
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S64x256, .f32⟩
  | .hbm, ⟨2, _⟩ => ⟨S64x256, .f32⟩
  | .hbm, ⟨3, _⟩ => ⟨S64x256, .f32⟩
  | .hbm, ⟨4, _⟩ => ⟨S16x4096x4x256, .f32⟩
  | .hbm, ⟨5, _⟩ => ⟨S16x4x4096x256, .f32⟩
  | .hbm, ⟨6, _⟩ => ⟨S16x4x4096x64, .f32⟩
  | .hbm, ⟨7, _⟩ => ⟨S16x4x4096x64, .f32⟩
  | .hbm, ⟨8, _⟩ => ⟨S16x4x4096x64, .f32⟩
  | .hbm, ⟨9, _⟩ => ⟨S16x4x64x64, .f32⟩
  | .hbm, ⟨10, _⟩ => ⟨S_, .f32⟩
  | .hbm, ⟨11, _⟩ => ⟨S16x4x64x64, .f32⟩
  | .hbm, ⟨12, _⟩ => ⟨S16x4x64x64, .f32⟩
  | .hbm, ⟨13, _⟩ => ⟨S_, .f32⟩
  | .hbm, ⟨14, _⟩ => ⟨S16x4x64, .f32⟩
  | .hbm, ⟨15, _⟩ => ⟨S_, .f32⟩
  | .hbm, ⟨16, _⟩ => ⟨S16x4x64, .f32⟩
  | .hbm, ⟨17, _⟩ => ⟨S16x4x64, .f32⟩
  | .hbm, ⟨18, _⟩ => ⟨S16x4x64x1, .f32⟩
  | .hbm, ⟨19, _⟩ => ⟨S16x4x64x64, .f32⟩
  | .hbm, ⟨20, _⟩ => ⟨S16x4x64x64, .f32⟩
  | .hbm, ⟨21, _⟩ => ⟨S16x4x64x64, .f32⟩
  | .hbm, ⟨22, _⟩ => ⟨S_, .f32⟩
  | .hbm, ⟨23, _⟩ => ⟨S16x4x64, .f32⟩
  | .hbm, ⟨24, _⟩ => ⟨S16x4x64x1, .f32⟩
  | .hbm, ⟨25, _⟩ => ⟨S16x4x64x64, .f32⟩
  | .hbm, ⟨26, _⟩ => ⟨S16x4x64x64, .f32⟩
  | .hbm, ⟨27, _⟩ => ⟨S16x4x4096x64, .f32⟩
  | .hbm, ⟨28, _⟩ => ⟨S16x4096x4x64, .f32⟩
  | .hbm, ⟨29, _⟩ => ⟨S16x4096x256, .f32⟩
  | .hbm, ⟨30, _⟩ => ⟨S16x1x4096x256, .f32⟩
  | .hbm, ⟨31, _⟩ => ⟨S16x4096x256, .f32⟩
  | .hbm, ⟨32, _⟩ => ⟨S16x4096x256, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]

class Facts₀ : Prop where
  shapeCasts_S16x4096x1024_S16x4096x4x256 : S16x4096x1024.ShapeCasts S16x4096x4x256
  transposes_S16x4096x4x256_S16x4x4096x256_0_2_1_3 : S16x4096x4x256.Transposes [0, 2, 1, 3] S16x4x4096x256
  bcast_S_S16x4x64x64 : S_.BroadcastsInDim S16x4x64x64 (![] : Fin 0 → Fin S16x4x64x64.rank)
  reducesTo_S16x4x64x64_S16x4x64_d3 : S16x4x64x64.ReducesTo [3] S16x4x64
  h_S_ : 0 < S_.numel
  bcast_S_S16x4x64 : S_.BroadcastsInDim S16x4x64 (![] : Fin 0 → Fin S16x4x64.rank)
  bcast_S16x4x64_S16x4x64x1_0_1_2 : S16x4x64.BroadcastsInDim S16x4x64x1 (![0, 1, 2] : Fin 3 → Fin S16x4x64x1.rank)
  bcast_S16x4x64x1_S16x4x64x64_0_1_2_3 : S16x4x64x1.BroadcastsInDim S16x4x64x64 (![0, 1, 2, 3] : Fin 4 → Fin S16x4x64x64.rank)
  transposes_S16x4x4096x64_S16x4096x4x64_0_2_1_3 : S16x4x4096x64.Transposes [0, 2, 1, 3] S16x4096x4x64
  shapeCasts_S16x4096x4x64_S16x4096x256 : S16x4096x4x64.ShapeCasts S16x4096x256
  slices_S16x4x4096x256_S16x1x4096x256_0_3_0_0 : S16x4x4096x256.Slices ![0, 3, 0, 0] S16x1x4096x256
  shapeCasts_S16x1x4096x256_S16x4096x256 : S16x1x4096x256.ShapeCasts S16x4096x256
  dot_S16x4x4096x256_S64x256_S16x4x4096x64_3_1_012_0_n_n_wf : DotDims.WF S16x4x4096x256 S64x256 S16x4x4096x64 [3] [1] [0, 1, 2] [0] [] []
  dot_S16x4x4096x64_S16x4x4096x64_S16x4x64x64_2_2_3_3_01_01_wf : DotDims.WF S16x4x4096x64 S16x4x4096x64 S16x4x64x64 [2] [2] [3] [3] [0, 1] [0, 1]
  dot_S16x4x4096x64_S16x4x64x64_S16x4x4096x64_3_2_2_3_01_01_wf : DotDims.WF S16x4x4096x64 S16x4x64x64 S16x4x4096x64 [3] [2] [2] [3] [0, 1] [0, 1]

variable [Facts₀]

def dot_S16x4x4096x256_S64x256_S16x4x4096x64_3_1_012_0_n_n : DotDims S16x4x4096x256 S64x256 S16x4x4096x64 where
  lhsContracting := [3]
  rhsContracting := [1]
  lhsNonContracting := [0, 1, 2]
  rhsNonContracting := [0]
  lhsBatch := []
  rhsBatch := []
  wf := dot_S16x4x4096x256_S64x256_S16x4x4096x64_3_1_012_0_n_n_wf
def dot_S16x4x4096x64_S16x4x4096x64_S16x4x64x64_2_2_3_3_01_01 : DotDims S16x4x4096x64 S16x4x4096x64 S16x4x64x64 where
  lhsContracting := [2]
  rhsContracting := [2]
  lhsNonContracting := [3]
  rhsNonContracting := [3]
  lhsBatch := [0, 1]
  rhsBatch := [0, 1]
  wf := dot_S16x4x4096x64_S16x4x4096x64_S16x4x64x64_2_2_3_3_01_01_wf
def dot_S16x4x4096x64_S16x4x64x64_S16x4x4096x64_3_2_2_3_01_01 : DotDims S16x4x4096x64 S16x4x64x64 S16x4x4096x64 where
  lhsContracting := [3]
  rhsContracting := [2]
  lhsNonContracting := [2]
  rhsNonContracting := [3]
  lhsBatch := [0, 1]
  rhsBatch := [0, 1]
  wf := dot_S16x4x4096x64_S16x4x64x64_S16x4x4096x64_3_2_2_3_01_01_wf

class Facts : Prop extends Facts₀ where

variable [Facts]
-- ==== Proof.KernelAround.lean ====
/-
  The frame of `Kernel`: @main is ten host operations (a reshape of x to 65536 rows, the transpose of W_v cast to
  bf16, a zero block, four concatenations along the columns and one along the rows building the block-diagonal
  weight), one region over a grid of 32 points, and one host reshape of the region's result.  Every weakly fair
  execution terminates without a fault; the four argument arrays end as they began; and the region's result array
  ends at what the 32 points wrote back.

  At a point the body reads its block of x (2048 rows of 1024) and the whole weight (1024 by 256), and stores into
  its block of the result (2048 rows of 256) the last 256 columns of the x block plus the product of the x block
  with the weight.  The store covers the whole block, so what the result's staging buffer holds after the body is
  one function of the two input blocks (`out2`).  The statements hold at every float instance `F`.
-/
import proofs.«170480_j45672682226228_2_alg».proof.Proof.Gen.Kernel.Launch
import proofs.«170480_j45672682226228_2_alg».proof.Proof.Gen.Kernel.Skeleton
import proofs.«170480_j45672682226228_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The TensorCore buffers of core `c` when the region is entered: the launch memory after the ten host
    operations before the region. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- No host operation allocates. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the reshape after it: it reduces to the region
    continued by the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the region touches only the pipeline's arrays and the buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the pipeline: it writes the final result buffer only. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- No host operation before the region writes an argument array: the region finds each as launched. -/
theorem V_arg (a : Ref sig .tc) (ha : a ∉ [main_v0, main_v1, main_v2, main_cst, main_v3, main_v4, main_v5, main_v6, main_v7, main_v8])
    (c : Dev nD) : V m c a = m ((c : Thread nD τ).loc a) :=
  StableHlo.after_of_forall_not_mem (b := Proc.devRef .tc a) _ _ (List.forall_iff_forall_mem.mp (by
    simp only [List.mem_cons, List.mem_nil_iff, or_false, not_or] at ha
    simp only [hostOps0, List.flatten_cons, List.flatten_nil, List.append_nil, List.cons_append,
      List.nil_append, List.Forall, StableHlo.nullary_writes, StableHlo.unary_writes, StableHlo.nary_writes, StableHlo.reshape_writes, Finset.mem_singleton]
    refine ⟨?_, ?_, ?_, ?_, ?_, ?_, ?_, ?_, ?_, ?_⟩
    all_goals apply StableHlo.devRef_ne_of_ne
    · exact ha.1
    · exact ha.2.1
    · exact ha.2.2.1
    · exact ha.2.2.2.1
    · exact ha.2.2.2.2.1
    · exact ha.2.2.2.2.2.1
    · exact ha.2.2.2.2.2.2.1
    · exact ha.2.2.2.2.2.2.2.1
    · exact ha.2.2.2.2.2.2.2.2.1
    · exact ha.2.2.2.2.2.2.2.2.2))

/-- Nor does the reshape after it, and no argument is an array of the pipeline: each ends as launched. -/
theorem W_arg (dats : (p : Fin _) → (c : Dev nD) → Dat τ (Elt F) Unit ℕ (UR sig nD τ) ℕ (cfgs p) c)
    (a : Ref sig .tc) (ha : a ∉ [main_v0, main_v1, main_v2, main_cst, main_v3, main_v4, main_v5, main_v6, main_v7, main_v8])
    (ha' : a ≠ main_v10) (hw : ∀ w, Pipeline.arrRef spec0 w ≠ a) (c : Dev nD) :
    Pipeline.afterTail₀ cfgs dats 0 (V0 m) [hostOps1] c a = m ((c : Thread nD τ).loc a) := by
  unfold Pipeline.afterTail₀
  rw [StableHlo.after_of_forall_not_mem (b := Proc.devRef .tc a) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne ha')),
    Pipeline.withArrays_of_ne _ c (V0 m c) _ a hw]
  exact V_arg m a ha c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The x window's current staging buffer holds its block at every point (it is fetched at every point). -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The weight window's staging buffer holds the whole weight at every point: fetched at the first point, and its
    block index never moves. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The claim's post from a frame run -/

/-- From a run whose final state has every buffer outside the pipeline as the reshape after the region leaves it,
    the four argument arrays end as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_arg m dats main_arg0 (by decide) (by decide) (by decide) c),
     ((h c).2 main_arg1 (Pipeline.mem_restRefs_of main_arg1 (by decide) (by decide))).trans (W_arg m dats main_arg1 (by decide) (by decide) (by decide) c),
     ((h c).2 main_arg2 (Pipeline.mem_restRefs_of main_arg2 (by decide) (by decide))).trans (W_arg m dats main_arg2 (by decide) (by decide) (by decide) c),
     ((h c).2 main_arg3 (Pipeline.mem_restRefs_of main_arg3 (by decide) (by decide))).trans (W_arg m dats main_arg3 (by decide) (by decide) (by decide) c)⟩) h

end Cert.Kernel.Fr

end
-- ==== Proof.KernelFrame.lean ====
/-
  The body of `Kernel`'s one region and the run of @main.  At a grid point the body reads its 2048 by 1024 block
  of x (`x0`) and the whole 1024 by 256 weight (`x1`), and stores into its 2048 by 256 block of the result the last
  256 columns of the x block plus the matrix product of the x block (cast to bf16) with the weight, accumulated from
  zero.  The one store covers the block, so the result's staging buffer ends at one function `out2 x0 x1` of the two
  input blocks whatever it held before.  With that as the proof data of the pipeline, @main runs to the end with
  every array of the pipeline at what the points wrote back and every other buffer as the final reshape leaves it.
-/
import proofs.«170480_j45672682226228_2_alg».proof.Proof.KernelAround

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses -/

/-- The whole x block. -/
abbrev rX : Rect S2048x1024 := Rect.unit (s := S2048x1024) ![0, 0] S2048x1024.size inb_S2048x1024_S2048x1024_0_0
/-- The whole weight. -/
abbrev rW : Rect S1024x256 := Rect.unit (s := S1024x256) ![0, 0] S1024x256.size inb_S1024x256_S1024x256_0_0
/-- The last 256 columns of the x block. -/
abbrev rL : Rect S2048x1024 := Rect.unit (s := S2048x1024) ![0, 768] S2048x256.size inb_S2048x1024_S2048x256_0_768
/-- The whole result block. -/
abbrev rO : Rect S2048x256 := Rect.unit (s := S2048x256) ![0, 0] S2048x256.size inb_S2048x256_S2048x256_0_0

/-! ## What the body leaves in the result's buffer -/

/-- The result's staging buffer after the body, from the two input blocks: its one store, of the residual columns
    plus the product. -/
def out2 (x0 : Vec F S2048x1024 .f32) (x1 : Vec F S1024x256 .bf16) : Vec F S2048x256 .f32 :=
  View.canon [⟨rO, k0_pay1 (View.ld x0 rX) (View.ld x1 rW) (View.ld x0 rL)⟩]

/-- The one store covers the buffer. -/
theorem cover2 (p0 : Vec F S2048x256 .f32) (y : S2048x256.Idx) :
    ∃ pc ∈ ([⟨rO, p0⟩] : List (View.Piece (Elt F) S2048x256 .f32)), y ∈ pc.1.set :=
  View.cover_of_tiled [⟨rO, p0⟩] S2048x256.size (by rfl) y

/-! ## The body's triple -/

set_option maxHeartbeats 1000000 in
/-- The body on whole staging memrefs — the inputs' at contents `x0`, `x1`, the result's at anything — runs to the
    continuation with the inputs' as they were and the result's at `out2 x0 x1`. -/
theorem sound_kernel (c : Dev nD) (E : Set ℕ) (i : grid0.Coords) (arg1 : Memref sig .tc .vmem S2048x1024 .f32) (harg1 : arg1.IsWhole) (arg2 : Memref sig .tc .vmem S1024x256 .bf16) (harg2 : arg2.IsWhole) (arg3 : Memref sig .tc .vmem S2048x256 .f32) (harg3 : arg3.IsWhole)
    (x0 : Vec F S2048x1024 .f32) (x1 : Vec F S1024x256 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2 x0 x1)) -∗ K ⟨⟩))
      ⊢ wp frame (wpE (defs₀ (F := F)) Variants.none c none) E (cc0__v_residual_kernel i arg1 harg1 arg2 harg2 arg3 harg3) K := by
  simp only [cc0__v_residual_kernel_eq_skeleton]; unfold cc0__v_residual_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-! ## The pipeline's proof data -/

/-- The proof data of the pipeline on core `c`: the arrays as the region finds them; after the body at point `t` each
    input's buffer at its block and the result's at `out2` of the two input blocks; nothing of the kernel's own. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = out2 (iblk m c 0 t) (iblk m c 1 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every array of the pipeline at what the proof data's points wrote back and every other unscoped buffer as the
    reshape after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main runs to the end and the four argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (run_main m ρ)

end Cert.Kernel.Fr

end
-- ==== Proof.KernelIdealAround.lean ====
/-
  The frame of `KernelIdeal`: @main is ten host operations (a reshape of x to 65536 rows, the transpose of W_v cast to
  bf16, a zero block, four concatenations along the columns and one along the rows building the block-diagonal
  weight), one region over a grid of 32 points, and one host reshape of the region's result.  Every weakly fair
  execution terminates without a fault; the four argument arrays end as they began; and the region's result array
  ends at what the 32 points wrote back.

  At a point the body reads its block of x (2048 rows of 1024) and the whole weight (1024 by 256), and stores into
  its block of the result (2048 rows of 256) the last 256 columns of the x block plus the product of the x block
  with the weight.  The store covers the whole block, so what the result's staging buffer holds after the body is
  one function of the two input blocks (`out2`).  The statements hold at every float instance `F`.
-/
import proofs.«170480_j45672682226228_2_alg».proof.Proof.Gen.KernelIdeal.Launch
import proofs.«170480_j45672682226228_2_alg».proof.Proof.Gen.KernelIdeal.Skeleton
import proofs.«170480_j45672682226228_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The TensorCore buffers of core `c` when the region is entered: the launch memory after the ten host
    operations before the region. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- No host operation allocates. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the reshape after it: it reduces to the region
    continued by the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the region touches only the pipeline's arrays and the buffers that bypass it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the pipeline: it writes the final result buffer only. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- No host operation before the region writes an argument array: the region finds each as launched. -/
theorem V_arg (a : Ref sig .tc) (ha : a ∉ [main_v0, main_v1, main_v2, main_cst, main_v3, main_v4, main_v5, main_v6, main_v7, main_v8])
    (c : Dev nD) : V m c a = m ((c : Thread nD τ).loc a) :=
  StableHlo.after_of_forall_not_mem (b := Proc.devRef .tc a) _ _ (List.forall_iff_forall_mem.mp (by
    simp only [List.mem_cons, List.mem_nil_iff, or_false, not_or] at ha
    simp only [hostOps0, List.flatten_cons, List.flatten_nil, List.append_nil, List.cons_append,
      List.nil_append, List.Forall, StableHlo.nullary_writes, StableHlo.unary_writes, StableHlo.nary_writes, StableHlo.reshape_writes, Finset.mem_singleton]
    refine ⟨?_, ?_, ?_, ?_, ?_, ?_, ?_, ?_, ?_, ?_⟩
    all_goals apply StableHlo.devRef_ne_of_ne
    · exact ha.1
    · exact ha.2.1
    · exact ha.2.2.1
    · exact ha.2.2.2.1
    · exact ha.2.2.2.2.1
    · exact ha.2.2.2.2.2.1
    · exact ha.2.2.2.2.2.2.1
    · exact ha.2.2.2.2.2.2.2.1
    · exact ha.2.2.2.2.2.2.2.2.1
    · exact ha.2.2.2.2.2.2.2.2.2))

/-- Nor does the reshape after it, and no argument is an array of the pipeline: each ends as launched. -/
theorem W_arg (dats : (p : Fin _) → (c : Dev nD) → Dat τ (Elt F) Unit ℕ (UR sig nD τ) ℕ (cfgs p) c)
    (a : Ref sig .tc) (ha : a ∉ [main_v0, main_v1, main_v2, main_cst, main_v3, main_v4, main_v5, main_v6, main_v7, main_v8])
    (ha' : a ≠ main_v10) (hw : ∀ w, Pipeline.arrRef spec0 w ≠ a) (c : Dev nD) :
    Pipeline.afterTail₀ cfgs dats 0 (V0 m) [hostOps1] c a = m ((c : Thread nD τ).loc a) := by
  unfold Pipeline.afterTail₀
  rw [StableHlo.after_of_forall_not_mem (b := Proc.devRef .tc a) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne ha')),
    Pipeline.withArrays_of_ne _ c (V0 m c) _ a hw]
  exact V_arg m a ha c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The x window's current staging buffer holds its block at every point (it is fetched at every point). -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The weight window's staging buffer holds the whole weight at every point: fetched at the first point, and its
    block index never moves. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The claim's post from a frame run -/

/-- From a run whose final state has every buffer outside the pipeline as the reshape after the region leaves it,
    the four argument arrays end as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_arg m dats main_arg0 (by decide) (by decide) (by decide) c),
     ((h c).2 main_arg1 (Pipeline.mem_restRefs_of main_arg1 (by decide) (by decide))).trans (W_arg m dats main_arg1 (by decide) (by decide) (by decide) c),
     ((h c).2 main_arg2 (Pipeline.mem_restRefs_of main_arg2 (by decide) (by decide))).trans (W_arg m dats main_arg2 (by decide) (by decide) (by decide) c),
     ((h c).2 main_arg3 (Pipeline.mem_restRefs_of main_arg3 (by decide) (by decide))).trans (W_arg m dats main_arg3 (by decide) (by decide) (by decide) c)⟩) h

end Cert.KernelIdeal.Fr

end
-- ==== Proof.KernelIdealFrame.lean ====
/-
  The body of `KernelIdeal`'s one region and the run of @main.  At a grid point the body reads its 2048 by 1024 block
  of x (`x0`) and the whole 1024 by 256 weight (`x1`), and stores into its 2048 by 256 block of the result the last
  256 columns of the x block plus the matrix product of the x block (cast to bf16) with the weight, accumulated from
  zero.  The one store covers the block, so the result's staging buffer ends at one function `out2 x0 x1` of the two
  input blocks whatever it held before.  With that as the proof data of the pipeline, @main runs to the end with
  every array of the pipeline at what the points wrote back and every other buffer as the final reshape leaves it.
-/
import proofs.«170480_j45672682226228_2_alg».proof.Proof.KernelIdealAround

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses -/

/-- The whole x block. -/
abbrev rX : Rect S2048x1024 := Rect.unit (s := S2048x1024) ![0, 0] S2048x1024.size inb_S2048x1024_S2048x1024_0_0
/-- The whole weight. -/
abbrev rW : Rect S1024x256 := Rect.unit (s := S1024x256) ![0, 0] S1024x256.size inb_S1024x256_S1024x256_0_0
/-- The last 256 columns of the x block. -/
abbrev rL : Rect S2048x1024 := Rect.unit (s := S2048x1024) ![0, 768] S2048x256.size inb_S2048x1024_S2048x256_0_768
/-- The whole result block. -/
abbrev rO : Rect S2048x256 := Rect.unit (s := S2048x256) ![0, 0] S2048x256.size inb_S2048x256_S2048x256_0_0

/-! ## What the body leaves in the result's buffer -/

/-- The result's staging buffer after the body, from the two input blocks: its one store, of the residual columns
    plus the product. -/
def out2 (x0 : Vec F S2048x1024 .f32) (x1 : Vec F S1024x256 .bf16) : Vec F S2048x256 .f32 :=
  View.canon [⟨rO, k0_pay1 (View.ld x0 rX) (View.ld x1 rW) (View.ld x0 rL)⟩]

/-- The one store covers the buffer. -/
theorem cover2 (p0 : Vec F S2048x256 .f32) (y : S2048x256.Idx) :
    ∃ pc ∈ ([⟨rO, p0⟩] : List (View.Piece (Elt F) S2048x256 .f32)), y ∈ pc.1.set :=
  View.cover_of_tiled [⟨rO, p0⟩] S2048x256.size (by rfl) y

/-! ## The body's triple -/

set_option maxHeartbeats 1000000 in
/-- The body on whole staging memrefs — the inputs' at contents `x0`, `x1`, the result's at anything — runs to the
    continuation with the inputs' as they were and the result's at `out2 x0 x1`. -/
theorem sound_kernel (c : Dev nD) (E : Set ℕ) (i : grid0.Coords) (arg1 : Memref sig .tc .vmem S2048x1024 .f32) (harg1 : arg1.IsWhole) (arg2 : Memref sig .tc .vmem S1024x256 .bf16) (harg2 : arg2.IsWhole) (arg3 : Memref sig .tc .vmem S2048x256 .f32) (harg3 : arg3.IsWhole)
    (x0 : Vec F S2048x1024 .f32) (x1 : Vec F S1024x256 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2 x0 x1)) -∗ K ⟨⟩))
      ⊢ wp frame (wpE (defs₀ (F := F)) Variants.none c none) E (cc0__v_residual_kernel i arg1 harg1 arg2 harg2 arg3 harg3) K := by
  simp only [cc0__v_residual_kernel_eq_skeleton]; unfold cc0__v_residual_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-! ## The pipeline's proof data -/

/-- The proof data of the pipeline on core `c`: the arrays as the region finds them; after the body at point `t` each
    input's buffer at its block and the result's at `out2` of the two input blocks; nothing of the kernel's own. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = out2 (iblk m c 0 t) (iblk m c 1 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    every array of the pipeline at what the proof data's points wrote back and every other unscoped buffer as the
    reshape after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main runs to the end and the four argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (run_main m ρ)

end Cert.KernelIdeal.Fr

end
-- ==== Proof.Spec.lean ====
/-
  The mathematics both programs compute, over the extended reals.

  With x of shape [16, 4096, 1024] read as four heads of 256 columns and W_v of shape [64, 256], the result at
  (b, s, j), j = 64 h + q, is

      x[b, s, 768 + j]  +  Σ_{d < 256} x[b, s, 256 h + d] · W_v[q, d]        (`G`)

  — the last head's column j plus head h's projection by row q of W_v.  The kernel computes, on x reshaped to 65536
  rows, x2[r, 768 + j] + Σ_{e < 1024} x2[r, e] · Wbd[e, j] (`regionOut`) with the block-diagonal weight
  Wbd[256 h' + d, 64 h + q] = W_v[q, d] if h' = h and 0 otherwise.  The law joining them (`sum_blockdiag`): a sum
  over 1024 = 4 · 256 indices of products whose second factor vanishes off one block of 256 is the sum over that
  block.  It uses only a · 0 = 0 and the commutative-monoid laws of +, so it needs no finiteness.
-/
import Idealize.ShloMosaic.PureOps.Ideal
import Idealize.ShloMosaic.Lib.ValueIdx

noncomputable section

open scoped BigOperators

namespace Cert.Spec

open Idealize.ShloMosaic Idealize.ShloMosaic.ValueIdx

/-- The result as one function of x and W_v, index by index. -/
def G (x : (⟨3, ![16, 4096, 1024]⟩ : Shape).Idx → EReal) (w : (⟨2, ![64, 256]⟩ : Shape).Idx → EReal)
    (i : (⟨3, ![16, 4096, 256]⟩ : Shape).Idx) : EReal :=
  x (ix3 (n0 := 16) (n1 := 4096) (n2 := 1024) ⟨(i 0).val, (i 0).isLt⟩ ⟨(i 1).val, (i 1).isLt⟩
      ⟨768 + (i 2).val, by have h : (i 2).val < 256 := (i 2).isLt; omega⟩)
    + ∑ d : Fin 256, x (ix3 (n0 := 16) (n1 := 4096) (n2 := 1024) ⟨(i 0).val, (i 0).isLt⟩ ⟨(i 1).val, (i 1).isLt⟩
          ⟨(i 2).val / 64 * 256 + d.val, by have h : (i 2).val < 256 := (i 2).isLt; have := d.isLt; omega⟩)
        * w (ix2 (n0 := 64) (n1 := 256) ⟨(i 2).val % 64, Nat.mod_lt _ (by decide)⟩ d)

/-- The region's result as one function of the reshaped x (65536 rows of 1024) and the assembled weight
    (1024 by 256): the residual column plus the row-by-column product. -/
def regionOut (X : (⟨2, ![65536, 1024]⟩ : Shape).Idx → EReal) (Wb : (⟨2, ![1024, 256]⟩ : Shape).Idx → EReal)
    (i : (⟨2, ![65536, 256]⟩ : Shape).Idx) : EReal :=
  X (ix2 (n0 := 65536) (n1 := 1024) ⟨(i 0).val, (i 0).isLt⟩ ⟨768 + (i 1).val, by have h : (i 1).val < 256 := (i 1).isLt; omega⟩)
    + ∑ e : Fin 1024, X (ix2 (n0 := 65536) (n1 := 1024) ⟨(i 0).val, (i 0).isLt⟩ e)
        * Wb (ix2 (n0 := 1024) (n1 := 256) e ⟨(i 1).val, (i 1).isLt⟩)

/-- An index below 1024 is a block of four and a place below 256 in it. -/
def split4 : Fin 4 × Fin 256 ≃ Fin 1024 where
  toFun p := ⟨p.1.val * 256 + p.2.val, by have := p.1.isLt; have := p.2.isLt; omega⟩
  invFun e := (⟨e.val / 256, by have := e.isLt; omega⟩, ⟨e.val % 256, Nat.mod_lt _ (by decide)⟩)
  left_inv p := by
    rcases p with ⟨⟨h, hh⟩, ⟨d, hd⟩⟩
    refine Prod.ext (Fin.ext ?_) (Fin.ext ?_)
    · show (h * 256 + d) / 256 = h; omega
    · show (h * 256 + d) % 256 = d; omega
  right_inv e := by
    apply Fin.ext
    show e.val / 256 * 256 + e.val % 256 = e.val
    omega

/-- A sum over 1024 indices of products whose second factor is `b` on block `h` of 256 and zero elsewhere is the
    sum over that block. -/
theorem sum_blockdiag (a : Fin 1024 → EReal) (b : Fin 256 → EReal) (h : Fin 4) (col : Fin 1024 → EReal)
    (hcol : ∀ e : Fin 1024, col e = if e.val / 256 = h.val then b ⟨e.val % 256, Nat.mod_lt _ (by decide)⟩ else 0) :
    ∑ e : Fin 1024, a e * col e
      = ∑ d : Fin 256, a ⟨h.val * 256 + d.val, by have := h.isLt; have := d.isLt; omega⟩ * b d := by
  rw [← Equiv.sum_comp split4 (fun e => a e * col e), Fintype.sum_prod_type, Finset.sum_eq_single h]
  · refine Finset.sum_congr rfl fun d _ => ?_
    have hd := d.isLt
    have e1 : (split4 (h, d)).val / 256 = h.val := by show (h.val * 256 + d.val) / 256 = h.val; omega
    have e2 : (⟨(split4 (h, d)).val % 256, Nat.mod_lt _ (by decide)⟩ : Fin 256) = d :=
      Fin.ext (by show (h.val * 256 + d.val) % 256 = d.val; omega)
    rw [hcol, if_pos e1, e2]
    rfl
  · intro h' _ hne
    refine Finset.sum_eq_zero fun d _ => ?_
    have hd := d.isLt
    have e1 : ¬ (split4 (h', d)).val / 256 = h.val := by
      show ¬ (h'.val * 256 + d.val) / 256 = h.val
      intro hh; exact hne (Fin.ext (by omega))
    rw [hcol, if_neg e1, mul_zero]
  · intro hn; exact absurd (Finset.mem_univ h) hn

end Cert.Spec

end
-- ==== Proof.KernelBlocks.lean ====
/-
  What the region leaves in its result array.  At a point the body's store is, at row p and column q of the block,
  the x block's entry (p, 768 + q) plus Σ_{e < 1024} x0[p, e] · x1[e, q]: the format change to bf16 is the identity
  on the extended reals and the matrix unit accumulates from zero, so the product is the plain sum.  Point t's x
  block is rows 2048 t … 2048 t + 2047 of the reshaped x and its weight block is the whole weight, so what point t
  writes back is block t of `regionOut` of the two arrays.  The 32 blocks tile the 65536 rows (row r lies in block
  r / 2048), hence the array ends at `regionOut`.
-/
import proofs.«170480_j45672682226228_2_alg».proof.Proof.KernelIdealFrame
import proofs.«170480_j45672682226228_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.KValue

open Cert.KernelIdeal Cert.KernelIdeal.Gen Cert.KernelIdeal.Fr Idealize.ShloMosaic Idealize.ShloMosaic.TcCoe Idealize.SL.Sem
open Idealize.ShloMosaic.ValueIdx
open Idealize.ShloMosaic.Pipeline (Dat)

/-! ## The product's operand indices -/

theorem lhs0 (i : S2048x256.Idx) (q : dot_S2048x1024_S1024x256_S2048x256_1_0_0_1_n_n.contr.Idx) : (dot_S2048x1024_S1024x256_S2048x256_1_0_0_1_n_n.lhsIdx i q 0).val = (i 0).val := by
  unfold DotDims.lhsIdx
  rw [dif_neg (show ¬(0 : Fin S2048x1024.rank) ∈ dot_S2048x1024_S1024x256_S2048x256_1_0_0_1_n_n.lhsBatch by decide), dif_pos (show (0 : Fin S2048x1024.rank) ∈ dot_S2048x1024_S1024x256_S2048x256_1_0_0_1_n_n.lhsNonContracting by decide)]
  rfl
theorem lhs1 (i : S2048x256.Idx) (q : dot_S2048x1024_S1024x256_S2048x256_1_0_0_1_n_n.contr.Idx) : (dot_S2048x1024_S1024x256_S2048x256_1_0_0_1_n_n.lhsIdx i q 1).val = (q ⟨0, by decide⟩).val :=
  dot_S2048x1024_S1024x256_S2048x256_1_0_0_1_n_n.lhsIdx_val_of_single rfl i q
theorem rhs0 (i : S2048x256.Idx) (q : dot_S2048x1024_S1024x256_S2048x256_1_0_0_1_n_n.contr.Idx) : (dot_S2048x1024_S1024x256_S2048x256_1_0_0_1_n_n.rhsIdx i q 0).val = (q ⟨0, by decide⟩).val :=
  dot_S2048x1024_S1024x256_S2048x256_1_0_0_1_n_n.rhsIdx_val_of_single rfl i q
theorem rhs1 (i : S2048x256.Idx) (q : dot_S2048x1024_S1024x256_S2048x256_1_0_0_1_n_n.contr.Idx) : (dot_S2048x1024_S1024x256_S2048x256_1_0_0_1_n_n.rhsIdx i q 1).val = (i 1).val := by
  unfold DotDims.rhsIdx
  rw [dif_neg (show ¬(1 : Fin S1024x256.rank) ∈ dot_S2048x1024_S1024x256_S2048x256_1_0_0_1_n_n.rhsBatch by decide), dif_pos (show (1 : Fin S1024x256.rank) ∈ dot_S2048x1024_S1024x256_S2048x256_1_0_0_1_n_n.rhsNonContracting by decide)]
  rfl

/-! ## The body's store at an index -/

/-- The stored value at (p, q): the residual entry plus the row-by-column sum. -/
theorem pay_apply (x0 : Vec Ideal S2048x1024 .f32) (x1 : Vec Ideal S1024x256 .bf16) (x6 : Vec Ideal S2048x256 .f32)
    (j : S2048x256.Idx) :
    k0_pay1 x0 x1 x6 j = x6 j + ∑ e : Fin 1024, x0 (ix2 (n0 := 2048) (n1 := 1024) ⟨(j 0).val, (j 0).isLt⟩ e) * x1 (ix2 (n0 := 1024) (n1 := 256) e ⟨(j 1).val, (j 1).isLt⟩) := by
  unfold k0_pay1
  dsimp only
  rw [addf_apply, shapeCast_self]
  simp only [matmul]
  rw [Ideal.matmul_constant_zero_apply, ← Equiv.sum_comp (contrEquiv1 dot_S2048x1024_S1024x256_S2048x256_1_0_0_1_n_n 1024 rfl rfl).symm]
  refine congrArg (x6 j + ·) (Finset.sum_congr rfl fun e _ => ?_)
  have hk := contrEquiv1_symm_val dot_S2048x1024_S1024x256_S2048x256_1_0_0_1_n_n 1024 rfl rfl e
  rw [truncf_apply, shapeCast_self, shapeCast_self]
  refine congrArg₂ (· * ·) (congrArg x0 (funext fun a => Fin.ext ?_)) (congrArg x1 (funext fun a => Fin.ext ?_))
  · match a with
    | ⟨0, _⟩ => exact lhs0 _ _
    | ⟨1, _⟩ => exact (lhs1 _ _).trans hk
  · match a with
    | ⟨0, _⟩ => exact (rhs0 _ _).trans hk
    | ⟨1, _⟩ => exact rhs1 _ _

theorem hz : (![0, 0] : Fin 2 → Nat) = fun _ => 0 := funext fun a => by fin_cases a <;> rfl

/-- The result's staging buffer after the body, at (p, q), from the two input blocks. -/
theorem out2_apply (x0 : Vec Ideal S2048x1024 .f32) (x1 : Vec Ideal S1024x256 .bf16) (j : S2048x256.Idx) :
    out2 x0 x1 j = x0 (ix2 (n0 := 2048) (n1 := 1024) ⟨(j 0).val, (j 0).isLt⟩ ⟨768 + (j 1).val, by have h : (j 1).val < 256 := (j 1).isLt; omega⟩)
      + ∑ e : Fin 1024, x0 (ix2 (n0 := 2048) (n1 := 1024) ⟨(j 0).val, (j 0).isLt⟩ e) * x1 (ix2 (n0 := 1024) (n1 := 256) e ⟨(j 1).val, (j 1).isLt⟩) := by
  unfold out2
  rw [View.canon_unit_zero hz]
  simp only [View.ld_unit_zero (S := S2048x1024) hz, View.ld_unit_zero (S := S1024x256) hz]
  rw [pay_apply]
  refine congrArg (· + _) ?_
  show x0 (rL.idx j) = _
  refine congrArg x0 (funext fun a => Fin.ext ?_)
  match a with
  | ⟨0, _⟩ => show 0 + 1 * (j 0).val = (j 0).val; omega
  | ⟨1, _⟩ => show 768 + 1 * (j 1).val = 768 + (j 1).val; omega

/-! ## A point's write-back is its block of `regionOut` -/

/-- With the x block rows `k · 2048 …` of `X` and the weight block the whole of `Wb`, the buffer after the body
    is rows `k · 2048 …` of `regionOut X Wb`. -/
theorem out2_block (X : S65536x1024.Idx → EReal) (Wb : S1024x256.Idx → EReal)
    (b0 : Vec Ideal S2048x1024 .f32) (b1 : Vec Ideal S1024x256 .bf16) (k : Nat) (hk : k < 32)
    (hb0 : ∀ (p : Fin 2048) (e : Fin 1024), b0 (ix2 p e) = X (ix2 (n0 := 65536) (n1 := 1024) ⟨k * 2048 + p.val, by have := p.isLt; omega⟩ e))
    (hb1 : ∀ (e : Fin 1024) (q : Fin 256), b1 (ix2 e q) = Wb (ix2 e q))
    (j : S2048x256.Idx) (i : S65536x256.Idx) (hi0 : (i 0).val = k * 2048 + (j 0).val) (hi1 : (i 1).val = (j 1).val) :
    out2 b0 b1 j = Cert.Spec.regionOut X Wb i := by
  rw [out2_apply]
  unfold Cert.Spec.regionOut
  rw [hb0]
  refine congrArg₂ (· + ·) (congrArg X (funext fun a => Fin.ext ?_)) (Finset.sum_congr rfl fun e _ => ?_)
  · match a with
    | ⟨0, _⟩ => show k * 2048 + (j 0).val = (i 0).val; omega
    | ⟨1, _⟩ => show 768 + (j 1).val = 768 + (i 1).val; omega
  · rw [hb0, hb1]
    refine congrArg₂ (· * ·) (congrArg X (funext fun a => Fin.ext ?_)) (congrArg Wb (funext fun a => Fin.ext ?_))
    · match a with
      | ⟨0, _⟩ => show k * 2048 + (j 0).val = (i 0).val; omega
      | ⟨1, _⟩ => rfl
    · match a with
      | ⟨0, _⟩ => rfl
      | ⟨1, _⟩ => show (j 1).val = (i 1).val; omega

variable (m : (ℓ : Loc nD τ sig) → Buf (Elt Ideal) ℓ) (ρ : Dev nD → PrngReg)

/-- The printed index maps over the grid: the x and result windows are at block row t, the weight window never
    moves. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `regionOut` of the two arrays as the region finds them. -/
theorem flushed_eq (c : Dev nD) (t : Fin cfg0.N) :
    (dats m 0 c).flushed 2 t = ((cfg0.win 2).blk t).view.read (Elt Ideal) (Cert.Spec.regionOut (V m c main_v0) (V m c main_v8)) := by
  show (cfg0.win 2).cut (grid0.coords t) ((dats m 0 c).after 2 t) = _
  rw [after2]
  obtain ⟨e0, e1, e2, e3, e4, e5⟩ := idx_facts t
  have ht : t.val < 32 := t.isLt
  funext j
  refine out2_block (V m c main_v0) (V m c main_v8) (iblk m c 0 t) (iblk m c 1 t) t.val ht ?_ ?_ j (((cfg0.win 2).blk t).view.emb j) ?_ ?_
  · intro p e
    show V m c main_v0 (((cfg0.win 0).blk t).view.emb (ix2 p e)) = _
    refine congrArg (V m c main_v0) (funext fun a => Fin.ext ?_)
    match a with
    | ⟨0, _⟩ => show win0_0.index t (0 : Fin 2) * 2048 + 1 * p.val = t.val * 2048 + p.val; rw [e0]; omega
    | ⟨1, _⟩ => show win0_0.index t (1 : Fin 2) * 1024 + 1 * e.val = e.val; rw [e1]; omega
  · intro e q
    show V m c main_v8 (((cfg0.win 1).blk t).view.emb (ix2 e q)) = _
    refine congrArg (V m c main_v8) (funext fun a => Fin.ext ?_)
    match a with
    | ⟨0, _⟩ => show win0_1.index t (0 : Fin 2) * 1024 + 1 * e.val = e.val; rw [e2]; omega
    | ⟨1, _⟩ => show win0_1.index t (1 : Fin 2) * 256 + 1 * q.val = q.val; rw [e3]; omega
  · show win0_2.index t (0 : Fin 2) * 2048 + 1 * (j 0).val = t.val * 2048 + (j 0).val; rw [e4]; omega
  · show win0_2.index t (1 : Fin 2) * 256 + 1 * (j 1).val = (j 1).val; rw [e5]; omega

/-- An index of the result array is in point `t`'s block iff each coordinate is in the block's range. -/
theorem mem_blk (t : Fin cfg0.N) (i : S65536x256.Idx) :
    i ∈ ((cfg0.win 2).blk t).view.set ↔ ∀ a : Fin 2, win0_2.index t a * S2048x256.size a ≤ (i a).val ∧ (i a).val < win0_2.index t a * S2048x256.size a + S2048x256.size a := by
  show i ∈ ((View.whole main_v9).slice (win0_2.rect t)).set ↔ _
  rw [View.set_slice_whole, Rect.mem_set_unit]
  exact Iff.rfl

/-- Every row of the result array lies in some point's block: row r in block r / 2048. -/
theorem cover (i : S65536x256.Idx) : ∃ t : Fin cfg0.N, (cfg0.win 2).flush t = true ∧ i ∈ ((cfg0.win 2).blk t).view.set := by
  have hi0 : (i 0).val < 65536 := (i 0).isLt
  have hi1 : (i 1).val < 256 := (i 1).isLt
  refine ⟨⟨(i 0).val / 2048, by show (i 0).val / 2048 < 32; omega⟩, flush0_2 _, ?_⟩
  rw [mem_blk]
  obtain ⟨e0, e1, e2, e3, e4, e5⟩ := idx_facts ⟨(i 0).val / 2048, by show (i 0).val / 2048 < 32; omega⟩
  intro a
  match a with
  | ⟨0, _⟩ => show win0_2.index _ (0 : Fin 2) * 2048 ≤ (i 0).val ∧ (i 0).val < win0_2.index _ (0 : Fin 2) * 2048 + 2048; rw [e4]; show (i 0).val / 2048 * 2048 ≤ (i 0).val ∧ (i 0).val < (i 0).val / 2048 * 2048 + 2048; omega
  | ⟨1, _⟩ => show win0_2.index _ (1 : Fin 2) * 256 ≤ (i 1).val ∧ (i 1).val < win0_2.index _ (1 : Fin 2) * 256 + 256; rw [e5]; omega

/-- The result array after the run is `regionOut` of the reshaped x and the assembled weight as the region finds
    them. -/
theorem final (c : Dev nD) : (dats m 0 c).arrAt 2 cfg0.N = Cert.Spec.regionOut (V m c main_v0) (V m c main_v8) :=
  (dats m 0 c).arrAt_eq_of_cover 2 _ (fun t _ => flushed_eq m c t) cover

end Cert.KernelIdeal.KValue

end
-- ==== Proof.KernelValue.lean ====
/-
  The kernel computes `G`.  The region finds x reshaped to 65536 rows (row r = 4096 b + s is x[b, s, ·]) and the
  weight @main assembled: four row blocks of 256 rows stacked, row block h being W_vᵀ (256 by 64, cast to bf16)
  placed at column block h between zero blocks.  So the weight at (e, j) is W_v[j mod 64, e mod 256] when
  e / 256 = j / 64 and 0 otherwise, and the row-by-column sum over 1024 collapses to the sum over head j / 64's 256
  columns (`sum_blockdiag`).  The region's result, reshaped back to [16, 4096, 256] by the last host operation, is
  then `G` of x and W_v at every index.
-/
import proofs.«170480_j45672682226228_2_alg».proof.Proof.KernelBlocks
import Idealize.ShloMosaic.Lib.StableHlo.Run

set_option maxRecDepth 16384

noncomputable section

open scoped BigOperators

namespace Cert.KernelIdeal.KValue

open Cert.KernelIdeal Cert.KernelIdeal.Gen Cert.KernelIdeal.Fr Idealize.ShloMosaic Idealize.ShloMosaic.TcCoe Idealize.SL.Sem
open Idealize.ShloMosaic.ValueIdx
open Idealize.ShloMosaic.Pipeline (Dat)

/-! ## The assembled weight -/

/-- W_v transposed, in bf16: 256 by 64. -/
def wT (w : S64x256.Idx → EReal) : S256x64.Idx → EReal :=
  (truncf .bf16 (transpose S256x64 [1, 0] w transposes_S64x256_S256x64_1_0) bitsLt_bf16_f32 : FVec Ideal S256x64 .bf16)
/-- The zero block. -/
def zeroBlk : S256x64.Idx → EReal :=
  (broadcastInDim S256x64 ![] bcast_S_S256x64 (constant (F := Ideal) S_ .bf16 0x0000#16) : FVec Ideal S256x64 .bf16)
/-- Column piece `n` of row block `h`: W_vᵀ on the diagonal, zero off it. -/
def piece (w : S64x256.Idx → EReal) (h n : Fin 4) : S256x64.Idx → EReal := if n = h then wT w else zeroBlk
/-- Row block `h`: its four column pieces side by side. -/
def rowBlock (w : S64x256.Idx → EReal) (h : Fin 4) : S256x256.Idx → EReal :=
  concatenate S256x256 1 [⟨S256x64, piece w h 0⟩, ⟨S256x64, piece w h 1⟩, ⟨S256x64, piece w h 2⟩, ⟨S256x64, piece w h 3⟩]
    concatenates_S256x64_S256x64_S256x64_S256x64_S256x256_d1
/-- The block-diagonal weight: the four row blocks stacked. -/
def wbd (w : S64x256.Idx → EReal) : S1024x256.Idx → EReal :=
  concatenate S1024x256 0 [⟨S256x256, rowBlock w 0⟩, ⟨S256x256, rowBlock w 1⟩, ⟨S256x256, rowBlock w 2⟩, ⟨S256x256, rowBlock w 3⟩]
    concatenates_S256x256_S256x256_S256x256_S256x256_S1024x256_d0

/-- Four pieces of one shape laid along an axis, read at an index: the piece the axis coordinate over the piece's
    extent names, at the coordinate modulo the extent. -/
theorem concat4_apply {t s₁ : Shape} (a : Fin t.rank) (f : Fin 4 → (s₁.Idx → EReal))
    (h : Shape.Concatenates [s₁, s₁, s₁, s₁] t a)
    (hr : s₁.rank = t.rank) (K : Nat) (hK : s₁.size (a.cast hr.symm) = K) (j : t.Idx) (n : Fin 4) (hn : (j a).val / K = n.val)
    (i : s₁.Idx) (hia : (i (a.cast hr.symm)).val = (j a).val % K) (hi : ∀ b : Fin s₁.rank, b.cast hr ≠ a → (i b).val = (j (b.cast hr)).val) :
    concatenate t a [⟨s₁, f 0⟩, ⟨s₁, f 1⟩, ⟨s₁, f 2⟩, ⟨s₁, f 3⟩] h j = f n i :=
  concatenate_ofFn_apply a f h hr K hK j n hn i hia hi

theorem wT_apply (w : S64x256.Idx → EReal) (d : Fin 256) (q : Fin 64) : wT w (ix2 d q) = w (ix2 q d) := by
  unfold wT
  rw [truncf_apply]
  exact transpose_apply [1, 0] w transposes_S64x256_S256x64_1_0 (ix2 d q) (ix2 q d) (fun b => match b with
    | ⟨0, _⟩ => rfl
    | ⟨1, _⟩ => rfl)

theorem zeroBlk_apply (y : S256x64.Idx) : zeroBlk y = 0 := by
  unfold zeroBlk
  rw [broadcastInDim_apply ![] bcast_S_S256x64 _ y ix0 (fun a => a.elim0), constant_apply]
  simp [Ideal.ofBits, Ideal.ieee]

theorem rowBlock_apply (w : S64x256.Idx → EReal) (h : Fin 4) (d : Fin 256) (q : Fin 256) :
    rowBlock w h (ix2 d q) = if q.val / 64 = h.val then w (ix2 (n0 := 64) (n1 := 256) ⟨q.val % 64, Nat.mod_lt _ (by decide)⟩ d) else 0 := by
  have hq := q.isLt
  unfold rowBlock
  refine (concat4_apply (t := S256x256) (s₁ := S256x64) (1 : Fin 2) (piece w h) _ rfl 64 rfl (ix2 d q) ⟨q.val / 64, by omega⟩ rfl
    (ix2 (n0 := 256) (n1 := 64) d ⟨q.val % 64, Nat.mod_lt _ (by decide)⟩) rfl (fun b hb => match b, hb with
      | ⟨0, _⟩, _ => rfl
      | ⟨1, _⟩, hb => absurd rfl hb)).trans ?_
  unfold piece
  by_cases hc : q.val / 64 = h.val
  · rw [if_pos (Fin.ext hc), if_pos hc, wT_apply]
  · rw [if_neg (fun e => hc (congrArg Fin.val e)), if_neg hc, zeroBlk_apply]

/-- The assembled weight at (e, j): W_v[j mod 64, e mod 256] on the diagonal blocks, zero off them. -/
theorem wbd_apply (w : S64x256.Idx → EReal) (e : Fin 1024) (q : Fin 256) :
    wbd w (ix2 e q) = if e.val / 256 = q.val / 64 then w (ix2 (n0 := 64) (n1 := 256) ⟨q.val % 64, Nat.mod_lt _ (by decide)⟩ ⟨e.val % 256, Nat.mod_lt _ (by decide)⟩) else 0 := by
  have he := e.isLt
  unfold wbd
  refine (concat4_apply (t := S1024x256) (s₁ := S256x256) (0 : Fin 2) (rowBlock w) _ rfl 256 rfl (ix2 e q) ⟨e.val / 256, by omega⟩ rfl
    (ix2 (n0 := 256) (n1 := 256) ⟨e.val % 256, Nat.mod_lt _ (by decide)⟩ q) rfl (fun b hb => match b, hb with
      | ⟨0, _⟩, hb => absurd rfl hb
      | ⟨1, _⟩, _ => rfl)).trans ?_
  rw [rowBlock_apply]
  exact if_congr eq_comm rfl rfl

/-! ## The index-by-index equality -/

theorem regionOut_apply (X : S65536x1024.Idx → EReal) (Wb : S1024x256.Idx → EReal) (r : Fin 65536) (j : Fin 256) :
    Cert.Spec.regionOut X Wb (ix2 r j)
      = X (ix2 (n0 := 65536) (n1 := 1024) r ⟨768 + j.val, by have := j.isLt; omega⟩) + ∑ e : Fin 1024, X (ix2 r e) * Wb (ix2 e j) := rfl

theorem G_apply (x : S16x4096x1024.Idx → EReal) (w : S64x256.Idx → EReal) (b : Fin 16) (s : Fin 4096) (j : Fin 256) :
    Cert.Spec.G x w (ix3 b s j)
      = x (ix3 (n0 := 16) (n1 := 4096) (n2 := 1024) b s ⟨768 + j.val, by have := j.isLt; omega⟩)
        + ∑ d : Fin 256, x (ix3 (n0 := 16) (n1 := 4096) (n2 := 1024) b s ⟨j.val / 64 * 256 + d.val, by have := j.isLt; have := d.isLt; omega⟩)
            * w (ix2 (n0 := 64) (n1 := 256) ⟨j.val % 64, Nat.mod_lt _ (by decide)⟩ d) := rfl

/-- x reshaped to 65536 rows, read at row 4096 b + s. -/
theorem x2_apply (x : S16x4096x1024.Idx → EReal) (b : Fin 16) (s : Fin 4096) (e : Fin 1024) (r : Fin 65536) (hr : r.val = b.val * 4096 + s.val) :
    shapeCast S65536x1024 x shapeCasts_S16x4096x1024_S65536x1024 (ix2 r e) = x (ix3 b s e) :=
  shapeCast_apply x shapeCasts_S16x4096x1024_S65536x1024 (ix2 r e) (ix3 b s e) (by
    rewrite [Shape.rowMajor_val_three, Shape.rowMajor_val_two]
    show (b.val * 4096 + s.val) * 1024 + e.val = r.val * 1024 + e.val
    rw [hr])

/-- The region's result on the reshaped x and the assembled weight, reshaped back, is `G`. -/
theorem kernel_eq (x : S16x4096x1024.Idx → EReal) (w : S64x256.Idx → EReal) :
    shapeCast S16x4096x256 (Cert.Spec.regionOut (shapeCast S65536x1024 x shapeCasts_S16x4096x1024_S65536x1024) (wbd w)) shapeCasts_S65536x256_S16x4096x256
      = Cert.Spec.G x w := by
  funext i
  obtain ⟨b, s, j, rfl⟩ : ∃ (b : Fin 16) (s : Fin 4096) (j : Fin 256), i = ix3 b s j := ⟨i 0, i 1, i 2, eq_ix3 i⟩
  have hb := b.isLt
  have hs := s.isLt
  have hj := j.isLt
  have hr : (⟨b.val * 4096 + s.val, by omega⟩ : Fin 65536).val = b.val * 4096 + s.val := rfl
  rw [shapeCast_apply _ shapeCasts_S65536x256_S16x4096x256 (ix3 b s j) (ix2 (n0 := 65536) (n1 := 256) ⟨b.val * 4096 + s.val, by omega⟩ j)
    (by rewrite [Shape.rowMajor_val_two, Shape.rowMajor_val_three]; rfl)]
  rw [regionOut_apply, G_apply, x2_apply x b s _ _ hr]
  refine congrArg (_ + ·) ?_
  refine (Cert.Spec.sum_blockdiag
    (fun e => shapeCast S65536x1024 x shapeCasts_S16x4096x1024_S65536x1024 (ix2 (n0 := 65536) (n1 := 1024) ⟨b.val * 4096 + s.val, by omega⟩ e))
    (fun d => w (ix2 (n0 := 64) (n1 := 256) ⟨j.val % 64, Nat.mod_lt _ (by decide)⟩ d))
    ⟨j.val / 64, by omega⟩
    (fun e => wbd w (ix2 e j))
    (fun e => wbd_apply w e j)).trans ?_
  exact Finset.sum_congr rfl fun d _ => congrArg (· * _) (x2_apply x b s _ _ hr)

/-! ## The arrays the region finds, and the run -/

variable (m : (ℓ : Loc nD τ sig) → Buf (Elt Ideal) ℓ) (ρ : Dev nD → PrngReg)

/-- The region finds x reshaped to 65536 rows. -/
theorem V_v0 (c : Dev nD) : (V m c main_v0 : S65536x1024.Idx → EReal)
    = shapeCast S65536x1024 (m ((c : Thread nD τ).loc main_arg0)) shapeCasts_S16x4096x1024_S65536x1024 := by
  show StableHlo.after hostOps0 (fun b => m (c, b)) (Proc.devRef .tc main_v0) = _
  after_results
  rfl

/-- The region finds the block-diagonal weight assembled from W_v. -/
theorem V_v8 (c : Dev nD) : (V m c main_v8 : S1024x256.Idx → EReal) = wbd (m ((c : Thread nD τ).loc main_arg3)) := by
  show StableHlo.after hostOps0 (fun b => m (c, b)) (Proc.devRef .tc main_v8) = _
  after_results
  rfl

/-- The final result buffer is the region's result array reshaped. -/
theorem tail_v10 (c : Dev nD) : (Pipeline.afterTail₀ cfgs (dats m) 0 (V0 m) [hostOps1] c main_v10 : S16x4096x256.Idx → EReal)
    = shapeCast S16x4096x256 ((dats m 0 c).arrAt 2 cfg0.N) shapeCasts_S65536x256_S16x4096x256 := by
  unfold Pipeline.afterTail₀
  show StableHlo.after hostOps1 _ (Proc.devRef .tc main_v10) = _
  after_results
  show shapeCast S16x4096x256 (Pipeline.withArrays spec0 c (V0 m c) (fun w => (dats m 0 c).arrAt w cfg0.N) (Proc.devRef .tc (Pipeline.arrRef spec0 2))) shapeCasts_S65536x256_S16x4096x256 = _
  rw [Pipeline.withArrays_arr spec0 launch0.win.arr_inj]

/-- Every weakly fair execution of the idealized kernel's @main terminates with its result at `G` of x and W_v and
    its four arguments unchanged. -/
theorem run : θ_run defs (onTc (τ := τ) (main (F := Ideal))) ⟨m, fun _ => 0, ρ⟩ fun r => ∀ c : Dev nD,
      r.2.mem ((c.tc : Thread nD τ).loc main_v10) = Cert.Spec.G (m ((c.tc : Thread nD τ).loc main_arg0)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v10 (Pipeline.mem_restRefs_of main_v10 (by decide) (by decide))).trans
        ((tail_v10 m c).trans (by rw [final, V_v0, V_v8]; exact kernel_eq _ _)),
     ((h c).2 main_arg0 (Pipeline.mem_restRefs_of main_arg0 (by decide) (by decide))).trans (W_arg m (dats m) main_arg0 (by decide) (by decide) (by decide) c),
     ((h c).2 main_arg1 (Pipeline.mem_restRefs_of main_arg1 (by decide) (by decide))).trans (W_arg m (dats m) main_arg1 (by decide) (by decide) (by decide) c),
     ((h c).2 main_arg2 (Pipeline.mem_restRefs_of main_arg2 (by decide) (by decide))).trans (W_arg m (dats m) main_arg2 (by decide) (by decide) (by decide) c),
     ((h c).2 main_arg3 (Pipeline.mem_restRefs_of main_arg3 (by decide) (by decide))).trans (W_arg m (dats m) main_arg3 (by decide) (by decide) (by decide) c)⟩)
    (run_main m ρ)

end Cert.KernelIdeal.KValue

end
-- ==== Proof.RefValue.lean ====
/-
  The reference computes `G`.  Its result at (b, s, j) is the sum of two stages.  The first is x reshaped to
  [16, 4096, 4, 256], the two middle axes swapped, head 3 sliced out and reshaped back: x[b, s, 768 + j].  The second
  is the contraction of the swapped array's last axis with W_v's, swapped back and reshaped, which at column
  j = 64 h + q is Σ_d x[b, s, 256 h + d] · W_v[q, d].  Each layout stage reads its operand at an index computed from
  the row-major position, so the composed indices are arithmetic on (b, s, j).
-/
import proofs.«170480_j45672682226228_2_alg».proof.Proof.Gen.ReferenceIdeal.Read
import proofs.«170480_j45672682226228_2_alg».proof.Proof.Spec

noncomputable section

open scoped BigOperators

namespace Cert.ReferenceIdeal.RefValue

open Cert.ReferenceIdeal Cert.ReferenceIdeal.Read Idealize.ShloMosaic Idealize.ShloMosaic.ValueIdx

/-- The reference's last stage, as a function of x and W_v, is `G`. -/
theorem ref_eq (x : (⟨S16x4096x1024, .f32⟩ : BufTy).Contents (Elt Ideal)) (w : (⟨S64x256, .f32⟩ : BufTy).Contents (Elt Ideal)) :
    val_main_v24 (F := Ideal) x w = Cert.Spec.G x w := by
  funext i
  have h0 : (i 0).val < 16 := (i 0).isLt
  have h1 : (i 1).val < 4096 := (i 1).isLt
  have h2 : (i 2).val < 256 := (i 2).isLt
  have ex : ∀ p q : S16x4096x1024.Idx, (∀ a, (p a).val = (q a).val) → x p = x q :=
    fun p q h => congrArg x (funext fun a => Fin.ext (h a))
  have ew : ∀ p q : S64x256.Idx, (∀ a, (p a).val = (q a).val) → w p = w q :=
    fun p q h => congrArg w (funext fun a => Fin.ext (h a))
  rw [val_main_v24_apply, val_main_v23_apply, val_main_v22_apply, val_main_v1_apply, val_main_v0_apply,
    val_main_v21_apply, val_main_v20_apply, val_main_v4_apply]
  simp only [val_main_v1_apply, val_main_v0_apply]
  unfold Cert.Spec.G
  rw [Ideal.addf_def]
  refine congrArg₂ (· + ·) (ex _ _ fun a => ?_) (Finset.sum_congr rfl fun k _ => congrArg₂ (· * ·) (ex _ _ fun a => ?_) (ew _ _ fun a => ?_))
  · match a with
    | ⟨0, _⟩ => dsimp only; omega
    | ⟨1, _⟩ => dsimp only; omega
    | ⟨2, _⟩ => dsimp only; omega
  · have hk := k.isLt
    match a with
    | ⟨0, _⟩ => dsimp only; omega
    | ⟨1, _⟩ => dsimp only; omega
    | ⟨2, _⟩ => dsimp only; omega
  · match a with
    | ⟨0, _⟩ => dsimp only; omega
    | ⟨1, _⟩ => dsimp only

end Cert.ReferenceIdeal.RefValue

end
-- ==== Proof.lean ====
/-
  The certificate of the value-projection-with-residual kernel against its reference.

  Both programs take x : f32[16, 4096, 1024], read as four heads of 256 columns, and W_q, W_k, W_v : f32[64, 256], and
  return f32[16, 4096, 256].  Over the extended reals both compute, at (b, s, j) with j = 64 h + q,

      x[b, s, 768 + j] + Σ_{d < 256} x[b, s, 256 h + d] · W_v[q, d]                      (`Cert.Spec.G`)

  The reference does so by a per-head contraction and layout operations (its attention scores and weights do not
  reach the result).  The kernel reshapes x to 65536 rows, assembles a 1024 by 256 block-diagonal weight from W_vᵀ and
  zero blocks, and in one region over 32 row tiles adds to the last 256 columns of each row its product with that
  weight; off the diagonal blocks every term of the product is x · 0 = 0, so the sum over 1024 is the sum over one
  head's 256 columns.  No step divides, cancels or distributes, so nothing needs the inputs' finiteness.

  The three frames: each program runs to the end without a fault and leaves its arguments as they were (the two
  kernels by the body's run at every grid point under the pipeline's launch, the reference by its straight-line
  run).  The idealization rewrote no operation, so `preserves` is trivially true.
-/
import proofs.«170480_j45672682226228_2_alg».proof.Defs
import proofs.«170480_j45672682226228_2_alg».proof.Proof.Gen.Kernel
import proofs.«170480_j45672682226228_2_alg».proof.Proof.Gen.Kernel.Skeleton
import proofs.«170480_j45672682226228_2_alg».proof.Proof.Gen.Kernel.Launch
import proofs.«170480_j45672682226228_2_alg».proof.Proof.Gen.Kernel.Points
import proofs.«170480_j45672682226228_2_alg».proof.Proof.Gen.KernelIdeal
import proofs.«170480_j45672682226228_2_alg».proof.Proof.Gen.KernelIdeal.Skeleton
import proofs.«170480_j45672682226228_2_alg».proof.Proof.Gen.KernelIdeal.Launch
import proofs.«170480_j45672682226228_2_alg».proof.Proof.Gen.KernelIdeal.Points
import proofs.«170480_j45672682226228_2_alg».proof.Proof.Gen.ReferenceIdeal
import proofs.«170480_j45672682226228_2_alg».proof.Proof.Gen.Pre_finite_inputs
import proofs.«170480_j45672682226228_2_alg».proof.Proof.Gen.ReferenceIdeal.Run
import proofs.«170480_j45672682226228_2_alg».proof.Proof.Gen.ReferenceIdeal.Read
import proofs.«170480_j45672682226228_2_alg».proof.Proof.KernelFrame
import proofs.«170480_j45672682226228_2_alg».proof.Proof.KernelIdealFrame
import proofs.«170480_j45672682226228_2_alg».proof.Proof.KernelValue
import proofs.«170480_j45672682226228_2_alg».proof.Proof.RefValue
import Idealize.ShloMosaic.Adequacy
import Idealize.ShloMosaic.Init

noncomputable section

namespace Cert.Proof

open Idealize.ShloMosaic Idealize.SL.Sem

/-- The word-level kernel runs to the end and keeps its arguments. -/
theorem frame_k : Cert.frame_Kernel := fun m ρ _ => Cert.Kernel.Fr.frame m ρ

/-- So does the idealized kernel. -/
theorem frame_ki : Cert.frame_KernelIdeal := fun m ρ _ => Cert.KernelIdeal.Fr.frame m ρ

/-- And the reference: its straight-line run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both idealized programs end at `G` of x and W_v. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.ReferenceIdeal.RefValue.ref_eq, (hagree c).1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
